-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S800000 : Shape := ⟨1, ![800000]⟩
abbrev S160000 : Shape := ⟨1, ![160000]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S256x128 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S200000x256 .f32) (main_arg1 : FVec F S256x256 .f32) (main_arg2 : FVec F S256x256 .f32) (main_arg3 : FVec F S256 .f32) (main_arg4 : FVec F S256x128 .f32) (main_arg5 : FVec F S256x128 .f32) (main_arg6 : FVec F S128 .f32) (main_arg7 : IVec S800000 32) (main_arg8 : IVec S800000 32) (main_arg9 : IVec S160000 32) (main_arg10 : IVec S160000 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S200000x256 : Shape := ⟨2, ![200000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S800000 : Shape := ⟨1, ![800000]⟩
abbrev S160000 : Shape := ⟨1, ![160000]⟩
abbrev S_ : Shape := ⟨0, ![]⟩
abbrev S800000x1 : Shape := ⟨2, ![800000, 1]⟩
abbrev S800000x256 : Shape := ⟨2, ![800000, 256]⟩
abbrev S50000x256 : Shape := ⟨2, ![50000, 256]⟩
abbrev S50000x1 : Shape := ⟨2, ![50000, 1]⟩
abbrev S1x256 : Shape := ⟨2, ![1, 256]⟩
abbrev S2000x256 : Shape := ⟨2, ![2000, 256]⟩
abbrev S160000x1 : Shape := ⟨2, ![160000, 1]⟩
abbrev S160000x256 : Shape := ⟨2, ![160000, 256]⟩
abbrev S10000x256 : Shape := ⟨2, ![10000, 256]⟩
abbrev S10000x1 : Shape := ⟨2, ![10000, 1]⟩
abbrev S1x128 : Shape := ⟨2, ![1, 128]⟩
abbrev S10000x128 : Shape := ⟨2, ![10000, 128]⟩
abbrev S2000x128 : Shape := ⟨2, ![2000, 128]⟩

abbrev nBuf : Space → Nat
  | .hbm => 65
  | .vmem => 18
  | .smem => 0
  | _ => 0

abbrev bufTy : (tb : Table) → Fin (tcTables nBuf tb) → BufTy
  | .hbm, ⟨0, _⟩ => ⟨S200000x256, .f32⟩
  | .hbm, ⟨1, _⟩ => ⟨S256x256, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S256x128, .f32⟩
  | .hbm, ⟨6, _⟩ => ⟨S128, .f32⟩
  | .hbm, ⟨7, _⟩ => ⟨S800000, .i32⟩
  | .hbm, ⟨8, _⟩ => ⟨S800000, .i32⟩
  | .hbm, ⟨9, _⟩ => ⟨S160000, .i32⟩
  | .hbm, ⟨10, _⟩ => ⟨S160000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x256, .f32⟩
  | .hbm, ⟨20, _⟩ => ⟨S_, .f32⟩
  | .hbm, ⟨21, _⟩ => ⟨S50000x256, .f32⟩
  | .hbm, ⟨22, _⟩ => ⟨S800000x1, .i32⟩
  | .hbm, ⟨23, _⟩ => ⟨S50000x256, .f32⟩
  | .hbm, ⟨24, _⟩ => ⟨S_, .f32⟩
  | .hbm, ⟨25, _⟩ => ⟨S800000x1, .f32⟩
  | .hbm, ⟨26, _⟩ => ⟨S_, .f32⟩
  | .hbm, ⟨27, _⟩ => ⟨S50000x1, .f32⟩
  | .hbm, ⟨28, _⟩ => ⟨S800000x1, .i32⟩
  | .hbm, ⟨29, _⟩ => ⟨S50000x1, .f32⟩
  | .hbm, ⟨30, _⟩ => ⟨S_, .f32⟩
  | .hbm, ⟨31, _⟩ => ⟨S50000x1, .f32⟩
  | .hbm, ⟨32, _⟩ => ⟨S50000x1, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S1x256, .f32⟩
  | .hbm, ⟨37, _⟩ => ⟨S50000x256, .f32⟩
  | .hbm, ⟨38, _⟩ => ⟨S_, .i32⟩
  | .hbm, ⟨39, _⟩ => ⟨S160000, .i32⟩
  | .hbm, ⟨40, _⟩ => ⟨S160000, .i1⟩
  | .hbm, ⟨41, _⟩ => ⟨S_, .i32⟩
  | .hbm, ⟨42, _⟩ => ⟨S160000, .i32⟩
  | .hbm, ⟨43, _⟩ => ⟨S160000, .i32⟩
  | .hbm, ⟨44, _⟩ => ⟨S160000, .i32⟩
  | .hbm, ⟨45, _⟩ => ⟨S160000x1, .i32⟩
  | .hbm, ⟨46, _⟩ => ⟨S160000x256, .f32⟩
  | .hbm, ⟨47, _⟩ => ⟨S_, .f32⟩
  | .hbm, ⟨48, _⟩ => ⟨S10000x256, .f32⟩
  | .hbm, ⟨49, _⟩ => ⟨S160000x1, .i32⟩
  | .hbm, ⟨50, _⟩ => ⟨S10000x256, .f32⟩
  | .hbm, ⟨51, _⟩ => ⟨S_, .f32⟩
  | .hbm, ⟨52, _⟩ => ⟨S160000x1, .f32⟩
  | .hbm, ⟨53, _⟩ => ⟨S_, .f32⟩
  | .hbm, ⟨54, _⟩ => ⟨S10000x1, .f32⟩
  | .hbm, ⟨55, _⟩ => ⟨S160000x1, .i32⟩
  | .hbm, ⟨56, _⟩ => ⟨S10000x1, .f32⟩
  | .hbm, ⟨57, _⟩ => ⟨S_, .f32⟩
  | .hbm, ⟨58, _⟩ => ⟨S10000x1, .f32⟩
  | .hbm, ⟨59, _⟩ => ⟨S10000x1, .f32⟩
  | .hbm, ⟨60, _⟩ => ⟨S10000x256, .f32⟩
  | .hbm, ⟨61, _⟩ => ⟨S10000x256, .f32⟩
  | .hbm, ⟨62, _⟩ => ⟨S10000x256, .f32⟩
  | .hbm, ⟨63, _⟩ => ⟨S1x128, .f32⟩
  | .hbm, ⟨64, _⟩ => ⟨S10000x128, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  slices_S200000x256_S50000x256_0_0 : S200000x256.Slices ![0, 0] S50000x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S160000 : S_.BroadcastsInDim S160000 (![] : Fin 0 → Fin S160000.rank)
  bcast_S160000_S160000x1_0 : S160000.BroadcastsInDim S160000x1 (![0] : Fin 1 → Fin S160000x1.rank)
  bcast_S_S10000x256 : S_.BroadcastsInDim S10000x256 (![] : Fin 0 → Fin S10000x256.rank)
  bcast_S_S160000x1 : S_.BroadcastsInDim S160000x1 (![] : Fin 0 → Fin S160000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  slices_S50000x256_S10000x256_0_0 : S50000x256.Slices ![0, 0] S10000x256
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S200000x256_S800000x1_S800000x256_1_0_n_n_0_1_1256_wf : GatherDims.WF S200000x256 S800000x1 S800000x256 [1] [0] [] [0] [] 1 ![1, 256]
  scatter_S50000x256_S800000x1_S800000x256_1_0_0_1_wf : ScatterDims.WF S50000x256 S800000x1 S800000x256 [1] [0] [0] 1
  scatter_S50000x1_S800000x1_S800000x1_1_0_0_1_wf : ScatterDims.WF S50000x1 S800000x1 S800000x1 [1] [0] [0] 1
  dot_S2000x256_S256x256_S2000x256_1_0_0_1_n_n_wf : DotDims.WF S2000x256 S256x256 S2000x256 [1] [0] [0] [1] [] []
  gather_S50000x256_S160000x1_S160000x256_1_0_n_n_0_1_1256_wf : GatherDims.WF S50000x256 S160000x1 S160000x256 [1] [0] [] [0] [] 1 ![1, 256]
  scatter_S10000x256_S160000x1_S160000x256_1_0_0_1_wf : ScatterDims.WF S10000x256 S160000x1 S160000x256 [1] [0] [0] 1
  scatter_S10000x1_S160000x1_S160000x1_1_0_0_1_wf : ScatterDims.WF S10000x1 S160000x1 S160000x1 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S10000x256.size a
  hwx1_1 : ∀ i : grid1.Coords, EltTy.bits .f32 = 32 ∨ (Rect.block (s := S10000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S10000x128.size a
  hwx1_5 : ∀ i : grid1.Coords, EltTy.bits .f32 = 32 ∨ (Rect.block (s := S10000x128) S2000x128.size (cc1_transform_5 i) (hinb1_5 i)).WholeWords (EltTy.packing .f32)

variable [Facts₀]

def gather_S200000x256_S800000x1_S800000x256_1_0_n_n_0_1_1256 : GatherDims S200000x256 S800000x1 S800000x256 where
  offsetDims := [1]
  collapsedSliceDims := [0]
  operandBatchingDims := []
  startIndicesBatchingDims := []
  startIndexMap := [0]
  indexVectorDim := 1
  sliceSizes := ![1, 256]
  wf := gather_S200000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S160000x1_S160000x256_1_0_n_n_0_1_1256 : GatherDims S50000x256 S160000x1 S160000x256 where
  offsetDims := [1]
  collapsedSliceDims := [0]
  operandBatchingDims := []
  startIndicesBatchingDims := []
  startIndexMap := [0]
  indexVectorDim := 1
  sliceSizes := ![1, 256]
  wf := gather_S50000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def scatter_S10000x1_S160000x1_S160000x1_1_0_0_1 : ScatterDims S10000x1 S160000x1 S160000x1 where
  updateWindowDims := [1]
  insertedWindowDims := [0]
  scatterDimsToOperandDims := [0]
  indexVectorDim := 1
  wf := scatter_S10000x1_S160000x1_S160000x1_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v18) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S200000x256 : Shape := ⟨2, ![200000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S800000 : Shape := ⟨1, ![800000]⟩
abbrev S160000 : Shape := ⟨1, ![160000]⟩
abbrev S_ : Shape := ⟨0, ![]⟩
abbrev S800000x1 : Shape := ⟨2, ![800000, 1]⟩
abbrev S800000x256 : Shape := ⟨2, ![800000, 256]⟩
abbrev S50000x256 : Shape := ⟨2, ![50000, 256]⟩
abbrev S50000x1 : Shape := ⟨2, ![50000, 1]⟩
abbrev S1x256 : Shape := ⟨2, ![1, 256]⟩
abbrev S160000x1 : Shape := ⟨2, ![160000, 1]⟩
abbrev S160000x256 : Shape := ⟨2, ![160000, 256]⟩
abbrev S10000x256 : Shape := ⟨2, ![10000, 256]⟩
abbrev S10000x1 : Shape := ⟨2, ![10000, 1]⟩
abbrev S10000x128 : Shape := ⟨2, ![10000, 128]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S256x256, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S256x128, .f32⟩
  | .hbm, ⟨6, _⟩ => ⟨S128, .f32⟩
  | .hbm, ⟨7, _⟩ => ⟨S800000, .i32⟩
  | .hbm, ⟨8, _⟩ => ⟨S800000, .i32⟩
  | .hbm, ⟨9, _⟩ => ⟨S160000, .i32⟩
  | .hbm, ⟨10, _⟩ => ⟨S160000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x256, .f32⟩
  | .hbm, ⟨20, _⟩ => ⟨S_, .f32⟩
  | .hbm, ⟨21, _⟩ => ⟨S50000x256, .f32⟩
  | .hbm, ⟨22, _⟩ => ⟨S800000x1, .i32⟩
  | .hbm, ⟨23, _⟩ => ⟨S50000x256, .f32⟩
  | .hbm, ⟨24, _⟩ => ⟨S_, .f32⟩
  | .hbm, ⟨25, _⟩ => ⟨S800000x1, .f32⟩
  | .hbm, ⟨26, _⟩ => ⟨S_, .f32⟩
  | .hbm, ⟨27, _⟩ => ⟨S50000x1, .f32⟩
  | .hbm, ⟨28, _⟩ => ⟨S800000x1, .i32⟩
  | .hbm, ⟨29, _⟩ => ⟨S50000x1, .f32⟩
  | .hbm, ⟨30, _⟩ => ⟨S_, .f32⟩
  | .hbm, ⟨31, _⟩ => ⟨S50000x1, .f32⟩
  | .hbm, ⟨32, _⟩ => ⟨S50000x1, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S50000x256, .f32⟩
  | .hbm, ⟨44, _⟩ => ⟨S50000x256, .f32⟩
  | .hbm, ⟨45, _⟩ => ⟨S_, .i32⟩
  | .hbm, ⟨46, _⟩ => ⟨S160000, .i32⟩
  | .hbm, ⟨47, _⟩ => ⟨S160000, .i1⟩
  | .hbm, ⟨48, _⟩ => ⟨S_, .i32⟩
  | .hbm, ⟨49, _⟩ => ⟨S160000, .i32⟩
  | .hbm, ⟨50, _⟩ => ⟨S160000, .i32⟩
  | .hbm, ⟨51, _⟩ => ⟨S160000, .i32⟩
  | .hbm, ⟨52, _⟩ => ⟨S160000x1, .i32⟩
  | .hbm, ⟨53, _⟩ => ⟨S160000x256, .f32⟩
  | .hbm, ⟨54, _⟩ => ⟨S_, .f32⟩
  | .hbm, ⟨55, _⟩ => ⟨S10000x256, .f32⟩
  | .hbm, ⟨56, _⟩ => ⟨S160000x1, .i32⟩
  | .hbm, ⟨57, _⟩ => ⟨S10000x256, .f32⟩
  | .hbm, ⟨58, _⟩ => ⟨S_, .f32⟩
  | .hbm, ⟨59, _⟩ => ⟨S160000x1, .f32⟩
  | .hbm, ⟨60, _⟩ => ⟨S_, .f32⟩
  | .hbm, ⟨61, _⟩ => ⟨S10000x1, .f32⟩
  | .hbm, ⟨62, _⟩ => ⟨S160000x1, .i32⟩
  | .hbm, ⟨63, _⟩ => ⟨S10000x1, .f32⟩
  | .hbm, ⟨64, _⟩ => ⟨S_, .f32⟩
  | .hbm, ⟨65, _⟩ => ⟨S10000x1, .f32⟩
  | .hbm, ⟨66, _⟩ => ⟨S10000x1, .f32⟩
  | .hbm, ⟨67, _⟩ => ⟨S10000x256, .f32⟩
  | .hbm, ⟨68, _⟩ => ⟨S10000x256, .f32⟩
  | .hbm, ⟨69, _⟩ => ⟨S10000x256, .f32⟩
  | .hbm, ⟨70, _⟩ => ⟨S10000x128, .f32⟩
  | .hbm, ⟨71, _⟩ => ⟨S10000x128, .f32⟩
  | .hbm, ⟨72, _⟩ => ⟨S10000x128, .f32⟩
  | .hbm, ⟨73, _⟩ => ⟨S1x128, .f32⟩
  | .hbm, ⟨74, _⟩ => ⟨S10000x128, .f32⟩
  | .hbm, ⟨75, _⟩ => ⟨S10000x128, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  slices_S200000x256_S50000x256_0_0 : S200000x256.Slices ![0, 0] S50000x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S160000 : S_.BroadcastsInDim S160000 (![] : Fin 0 → Fin S160000.rank)
  bcast_S160000_S160000x1_0 : S160000.BroadcastsInDim S160000x1 (![0] : Fin 1 → Fin S160000x1.rank)
  bcast_S_S10000x256 : S_.BroadcastsInDim S10000x256 (![] : Fin 0 → Fin S10000x256.rank)
  bcast_S_S160000x1 : S_.BroadcastsInDim S160000x1 (![] : Fin 0 → Fin S160000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  slices_S50000x256_S10000x256_0_0 : S50000x256.Slices ![0, 0] S10000x256
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S200000x256_S800000x1_S800000x256_1_0_n_n_0_1_1256_wf : GatherDims.WF S200000x256 S800000x1 S800000x256 [1] [0] [] [0] [] 1 ![1, 256]
  scatter_S50000x256_S800000x1_S800000x256_1_0_0_1_wf : ScatterDims.WF S50000x256 S800000x1 S800000x256 [1] [0] [0] 1
  scatter_S50000x1_S800000x1_S800000x1_1_0_0_1_wf : ScatterDims.WF S50000x1 S800000x1 S800000x1 [1] [0] [0] 1
  dot_S50000x256_S256x256_S50000x256_1_0_0_1_n_n_wf : DotDims.WF S50000x256 S256x256 S50000x256 [1] [0] [0] [1] [] []
  gather_S50000x256_S160000x1_S160000x256_1_0_n_n_0_1_1256_wf : GatherDims.WF S50000x256 S160000x1 S160000x256 [1] [0] [] [0] [] 1 ![1, 256]
  scatter_S10000x256_S160000x1_S160000x256_1_0_0_1_wf : ScatterDims.WF S10000x256 S160000x1 S160000x256 [1] [0] [0] 1
  scatter_S10000x1_S160000x1_S160000x1_1_0_0_1_wf : ScatterDims.WF S10000x1 S160000x1 S160000x1 [1] [0] [0] 1
  dot_S10000x256_S256x128_S10000x128_1_0_0_1_n_n_wf : DotDims.WF S10000x256 S256x128 S10000x128 [1] [0] [0] [1] [] []

variable [Facts₀]

def gather_S200000x256_S800000x1_S800000x256_1_0_n_n_0_1_1256 : GatherDims S200000x256 S800000x1 S800000x256 where
  offsetDims := [1]
  collapsedSliceDims := [0]
  operandBatchingDims := []
  startIndicesBatchingDims := []
  startIndexMap := [0]
  indexVectorDim := 1
  sliceSizes := ![1, 256]
  wf := gather_S200000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S160000x1_S160000x256_1_0_n_n_0_1_1256 : GatherDims S50000x256 S160000x1 S160000x256 where
  offsetDims := [1]
  collapsedSliceDims := [0]
  operandBatchingDims := []
  startIndicesBatchingDims := []
  startIndexMap := [0]
  indexVectorDim := 1
  sliceSizes := ![1, 256]
  wf := gather_S50000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def scatter_S10000x1_S160000x1_S160000x1_1_0_0_1 : ScatterDims S10000x1 S160000x1 S160000x1 where
  updateWindowDims := [1]
  insertedWindowDims := [0]
  scatterDimsToOperandDims := [0]
  indexVectorDim := 1
  wf := scatter_S10000x1_S160000x1_S160000x1_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.RunMain.lean ====
/-
  The run of the whole program with its RESULT named: every weakly fair execution of @main terminates, nothing
  faulting, with the result buffer holding what the last segment boundary's contents say it holds, and the argument
  arrays as launched. The contents at the four segment boundaries (after the first stretch of host operations, after
  the first pallas_call's write-backs, after the second stretch, after the second pallas_call's write-backs) are the
  fold the generated frame module builds; its own run keeps only the arguments, so the same launch is stated here once
  more with the result's buffer read beside them.
-/
import proofs.«152853_j54391465836676_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The result buffer ends at the last boundary's contents, the arguments as launched. -/
theorem run_main : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Whole

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.LibSageLayer.lean ====
/-
  The dense half of one GraphSAGE layer, as a function of whole arrays.

  A layer maps the nodes' own features `hs` and the mean of their neighbours' features `hn`, both `[a, n]`, through two
  weight matrices `ws`, `wn` of shape `[n, b]` and adds a bias of length `b`:

      out (p, q) = ∑ k, hs (p, k) * ws (k, q)  +  ∑ k, hn (p, k) * wn (k, q)  +  bias q,

  the first layer followed by `max · 0`. Both programs compute exactly this, in this order of additions, so no law of
  the extended reals beyond reading each operation at an index is needed, and finiteness of the inputs plays no part.

  `layerBody_apply` / `layerBodyRelu_apply` read the spelling a kernel body uses on a block of rows — each operand cast
  to its own shape and narrowed to bf16 (the identity on exact values), two matrix products into zero accumulators, the
  bias row cast to itself twice and repeated down the rows — at an index, as that function of the block.
-/
import Idealize.ShloMosaic.PureOps.Ideal.Laws
import Idealize.ShloMosaic.Lib.ValueIdx
import Idealize.ShloMosaic.Lib.ValueLayout
import Idealize.ShloMosaic.Lib.Pipeline.Value
import proofs.«152853_j54391465836676_1_alg».proof.Proof.LibRowColDot

noncomputable section

namespace Cert.SageLayer

open Idealize.ShloMosaic Idealize.ShloMosaic.ValueIdx

variable {a n b : ℕ}

/-- `hs · ws + hn · wn + bias`, entry by entry. -/
def layer (hs hn : FVec Ideal ⟨2, ![a, n]⟩ .f32) (ws wn : FVec Ideal ⟨2, ![n, b]⟩ .f32) (bias : Fin b → EReal) :
    FVec Ideal ⟨2, ![a, b]⟩ .f32 :=
  fun j => (∑ k : Fin n, hs (ix2 (j 0) k) * ws (ix2 k (j 1))) + (∑ k : Fin n, hn (ix2 (j 0) k) * wn (ix2 k (j 1)))
    + bias (j 1)

/-- The same clamped below at the value of the zero word. -/
def layerRelu (hs hn : FVec Ideal ⟨2, ![a, n]⟩ .f32) (ws wn : FVec Ideal ⟨2, ![n, b]⟩ .f32) (bias : Fin b → EReal) :
    FVec Ideal ⟨2, ![a, b]⟩ .f32 :=
  fun j => max (layer hs hn ws wn bias j) (Ideal.ofBits .f32 0x00000000#32)

/-- Row `p'` of a block of rows against row `p` of the whole: when the two rows of features agree entry by entry, and
    column `q` of the weights and the bias entry `q` agree, the layer's values at `(p', q)` and `(p, q)` agree. -/
theorem layer_rows {a' : ℕ} (hs hn : FVec Ideal ⟨2, ![a, n]⟩ .f32) (ws wn : FVec Ideal ⟨2, ![n, b]⟩ .f32) (bias : Fin b → EReal)
    (hs' hn' : FVec Ideal ⟨2, ![a', n]⟩ .f32) (ws' wn' : FVec Ideal ⟨2, ![n, b]⟩ .f32) (bias' : Fin b → EReal)
    (p' : Fin a') (p : Fin a) (q : Fin b)
    (e0 : ∀ k, hs' (ix2 p' k) = hs (ix2 p k)) (e1 : ∀ k, hn' (ix2 p' k) = hn (ix2 p k))
    (e2 : ∀ k, ws' (ix2 k q) = ws (ix2 k q)) (e3 : ∀ k, wn' (ix2 k q) = wn (ix2 k q)) (e4 : bias' q = bias q) :
    layer hs' hn' ws' wn' bias' (ix2 p' q) = layer hs hn ws wn bias (ix2 p q) := by
  show (∑ k : Fin n, hs' (ix2 p' k) * ws' (ix2 k q)) + (∑ k : Fin n, hn' (ix2 p' k) * wn' (ix2 k q)) + bias' q
    = (∑ k : Fin n, hs (ix2 p k) * ws (ix2 k q)) + (∑ k : Fin n, hn (ix2 p k) * wn (ix2 k q)) + bias q
  have s0 : (∑ k : Fin n, hs' (ix2 p' k) * ws' (ix2 k q)) = ∑ k : Fin n, hs (ix2 p k) * ws (ix2 k q) :=
    Finset.sum_congr rfl fun k _ => by rw [e0 k, e2 k]
  have s1 : (∑ k : Fin n, hn' (ix2 p' k) * wn' (ix2 k q)) = ∑ k : Fin n, hn (ix2 p k) * wn (ix2 k q) :=
    Finset.sum_congr rfl fun k _ => by rw [e1 k, e3 k]
  rw [s0, s1, e4]

/-- The same for the clamped layer. -/
theorem layerRelu_rows {a' : ℕ} (hs hn : FVec Ideal ⟨2, ![a, n]⟩ .f32) (ws wn : FVec Ideal ⟨2, ![n, b]⟩ .f32) (bias : Fin b → EReal)
    (hs' hn' : FVec Ideal ⟨2, ![a', n]⟩ .f32) (ws' wn' : FVec Ideal ⟨2, ![n, b]⟩ .f32) (bias' : Fin b → EReal)
    (p' : Fin a') (p : Fin a) (q : Fin b)
    (e0 : ∀ k, hs' (ix2 p' k) = hs (ix2 p k)) (e1 : ∀ k, hn' (ix2 p' k) = hn (ix2 p k))
    (e2 : ∀ k, ws' (ix2 k q) = ws (ix2 k q)) (e3 : ∀ k, wn' (ix2 k q) = wn (ix2 k q)) (e4 : bias' q = bias q) :
    layerRelu hs' hn' ws' wn' bias' (ix2 p' q) = layerRelu hs hn ws wn bias (ix2 p q) := by
  show max (layer hs' hn' ws' wn' bias' (ix2 p' q)) _ = max (layer hs hn ws wn bias (ix2 p q)) _
  rw [layer_rows hs hn ws wn bias hs' hn' ws' wn' bias' p' p q e0 e1 e2 e3 e4]

/-- A kernel body's spelling of `layer` on a block, read at an index. -/
theorem layerBody_apply (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (x0 x1 : FVec Ideal ⟨2, ![a, n]⟩ .f32) (x2 x3 : FVec Ideal ⟨2, ![n, b]⟩ .f32) (x4 : FVec Ideal ⟨2, ![1, b]⟩ .f32)
    (c0 : (⟨2, ![a, n]⟩ : Shape).ShapeCasts ⟨2, ![a, n]⟩) (c4 : (⟨2, ![1, b]⟩ : Shape).ShapeCasts ⟨2, ![1, b]⟩)
    (hb : (⟨2, ![1, b]⟩ : Shape).Broadcasts ⟨2, ![a, b]⟩) (hlt : FTy.bf16.bits < FTy.f32.bits)
    (j : (⟨2, ![a, b]⟩ : Shape).Idx) :
    addf (addf (matmul d none (truncf .bf16 (shapeCast ⟨2, ![a, n]⟩ x0 c0) hlt) (truncf .bf16 x2 hlt) (constant ⟨2, ![a, b]⟩ .f32 0x00000000#32))
               (matmul d none (truncf .bf16 (shapeCast ⟨2, ![a, n]⟩ x1 c0) hlt) (truncf .bf16 x3 hlt) (constant ⟨2, ![a, b]⟩ .f32 0x00000000#32)))
         (broadcastTo ⟨2, ![a, b]⟩ (shapeCast ⟨2, ![1, b]⟩ (shapeCast ⟨2, ![1, b]⟩ x4 c4) c4) hb) j
      = layer x0 x1 x2 x3 (fun q => x4 (ix2 (0 : Fin 1) q)) j := by
  obtain ⟨p, q, rfl⟩ : ∃ (p : Fin a) (q : Fin b), j = ix2 p q := ⟨j 0, j 1, eq_ix2 j⟩
  rw [shapeCast_self x0 c0, shapeCast_self x1 c0, shapeCast_self x4 c4, shapeCast_self x4 c4]
  rw [addf_apply, addf_apply, RowColDot.matmul_rowcol d hr hs hcl hcr hl0 hr1,
    RowColDot.matmul_rowcol d hr hs hcl hcr hl0 hr1, broadcastTo_1b_ab_apply]
  rfl

/-- The same spelling followed by the maximum with a splat of the zero word. -/
theorem layerBodyRelu_apply (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (x0 x1 : FVec Ideal ⟨2, ![a, n]⟩ .f32) (x2 x3 : FVec Ideal ⟨2, ![n, b]⟩ .f32) (x4 : FVec Ideal ⟨2, ![1, b]⟩ .f32)
    (c0 : (⟨2, ![a, n]⟩ : Shape).ShapeCasts ⟨2, ![a, n]⟩) (c4 : (⟨2, ![1, b]⟩ : Shape).ShapeCasts ⟨2, ![1, b]⟩)
    (hb : (⟨2, ![1, b]⟩ : Shape).Broadcasts ⟨2, ![a, b]⟩) (hlt : FTy.bf16.bits < FTy.f32.bits)
    (j : (⟨2, ![a, b]⟩ : Shape).Idx) :
    maximumf (addf (addf (matmul d none (truncf .bf16 (shapeCast ⟨2, ![a, n]⟩ x0 c0) hlt) (truncf .bf16 x2 hlt) (constant ⟨2, ![a, b]⟩ .f32 0x00000000#32))
               (matmul d none (truncf .bf16 (shapeCast ⟨2, ![a, n]⟩ x1 c0) hlt) (truncf .bf16 x3 hlt) (constant ⟨2, ![a, b]⟩ .f32 0x00000000#32)))
         (broadcastTo ⟨2, ![a, b]⟩ (shapeCast ⟨2, ![1, b]⟩ (shapeCast ⟨2, ![1, b]⟩ x4 c4) c4) hb))
        (broadcast ⟨2, ![a, b]⟩ (Scalar.ofBits (F := Ideal) .f32 0x00000000#32)) j
      = layerRelu x0 x1 x2 x3 (fun q => x4 (ix2 (0 : Fin 1) q)) j := by
  rw [maximumf_apply, layerBody_apply d hr hs hcl hcr hl0 hr1 x0 x1 x2 x3 x4 c0 c4 hb hlt j]
  rfl

end Cert.SageLayer

end
-- ==== Proof.Region0.lean ====
/-
  The first pallas_call, read as values: whatever the TensorCore's buffers hold when the region is entered, the
  region's output array ends holding the first layer's dense half (with the clamp at zero) of the five arrays its
  windows read. Point `t` of the grid of 25 handles rows `2000 t … 2000 t + 1999`; the weight matrices and the bias
  row are one block at every point.
-/
import proofs.«152853_j54391465836676_1_alg».proof.Proof.Gen.KernelIdeal.Frame
import proofs.«152853_j54391465836676_1_alg».proof.Proof.LibSageLayer
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

local notation "dd" => dot_S2000x256_S256x256_S2000x256_1_0_0_1_n_n

theorem hz : (![0, 0] : Fin 2 → Nat) = fun _ => 0 := funext fun a => by fin_cases a <;> rfl

/-- The kept coordinate of the left operand's index is the output's row. -/
theorem dot_l0 (j : S2000x256.Idx) (q : dot_S2000x256_S256x256_S2000x256_1_0_0_1_n_n.contr.Idx) :
    (dot_S2000x256_S256x256_S2000x256_1_0_0_1_n_n.lhsIdx j q 0).val = (j 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- The kept coordinate of the right operand's index is the output's column. -/
theorem dot_r1 (j : S2000x256.Idx) (q : dot_S2000x256_S256x256_S2000x256_1_0_0_1_n_n.contr.Idx) :
    (dot_S2000x256_S256x256_S2000x256_1_0_0_1_n_n.rhsIdx j q 1).val = (j 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The body's stored value at an index of the block: the layer of the five loaded blocks. -/
theorem pay_apply (x0 x1 : Vec Ideal S2000x256 .f32) (x2 x3 : Vec Ideal S256x256 .f32) (x4 : Vec Ideal S1x256 .f32)
    (j : S2000x256.Idx) :
    k0_pay1 x0 x1 x2 x3 x4 j = SageLayer.layerRelu x0 x1 x2 x3 (fun q => x4 (ix2 (0 : Fin 1) q)) j := by
  unfold k0_pay1
  exact SageLayer.layerBodyRelu_apply dot_S2000x256_S256x256_S2000x256_1_0_0_1_n_n rfl rfl rfl rfl dot_l0 dot_r1
    x0 x1 x2 x3 x4 _ _ _ _ j

variable (V : (c : Dev nD) → (b : Ref sig .tc) → Buf (Elt Ideal) ((c : Thread nD τ).loc b))

/-- What the region's output array ends holding: the clamped layer of the arrays its five input windows read. -/
def G (c : Dev nD) : S50000x256.Idx → Elt Ideal .f32 :=
  SageLayer.layerRelu (a := 50000) (n := 256) (b := 256) (V c main_v18) (V c main_v17) (V c main_arg1) (V c main_arg2)
    (fun q => V c main_v19 (ix2 (0 : Fin 1) q))

/-- The printed index maps, decided over the grid: the two feature windows and the output move down the rows with
    the point, block `t` at point `t`; the weights and the bias stay at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 25 := lt_of_lt_of_eq t.isLt N_0

/-- Row `p` of the own-features block at point `t` is row `2000 t + p` of the array. -/
theorem blk0_apply (c : Dev nD) (t : Fin cfg0.N) (p : Fin 2000) (k : Fin 256) (h : t.val * 2000 + p.val < 50000) :
    iblk0 V c 0 t (ix2 p k) = V c main_v18 (ix2 (⟨t.val * 2000 + p.val, h⟩ : Fin 50000) k) := by
  obtain ⟨e0, e1, -⟩ := idx_facts t
  show V c main_v18 (((cfg0.win 0).blk t).view.emb (ix2 p k)) = _
  refine congrArg (V c main_v18) ?_
  funext a; apply Fin.ext
  match a with
  | ⟨0, _⟩ => show win0_0.index t (0 : Fin 2) * 2000 + 1 * p.val = t.val * 2000 + p.val; omega
  | ⟨1, _⟩ => show win0_0.index t (1 : Fin 2) * 256 + 1 * k.val = k.val; omega

/-- Row `p` of the neighbour-mean block at point `t` is row `2000 t + p` of the array. -/
theorem blk1_apply (c : Dev nD) (t : Fin cfg0.N) (p : Fin 2000) (k : Fin 256) (h : t.val * 2000 + p.val < 50000) :
    iblk0 V c 1 t (ix2 p k) = V c main_v17 (ix2 (⟨t.val * 2000 + p.val, h⟩ : Fin 50000) k) := by
  obtain ⟨-, -, e0, e1, -⟩ := idx_facts t
  show V c main_v17 (((cfg0.win 1).blk t).view.emb (ix2 p k)) = _
  refine congrArg (V c main_v17) ?_
  funext a; apply Fin.ext
  match a with
  | ⟨0, _⟩ => show win0_1.index t (0 : Fin 2) * 2000 + 1 * p.val = t.val * 2000 + p.val; omega
  | ⟨1, _⟩ => show win0_1.index t (1 : Fin 2) * 256 + 1 * k.val = k.val; omega

/-- The first weight matrix's one block is the matrix. -/
theorem blk2_apply (c : Dev nD) (t : Fin cfg0.N) (k : Fin 256) (q : Fin 256) :
    iblk0 V c 2 t (ix2 k q) = V c main_arg1 (ix2 k q) := by
  obtain ⟨-, -, -, -, e0, e1, -⟩ := idx_facts t
  show V c main_arg1 (((cfg0.win 2).blk t).view.emb (ix2 k q)) = _
  refine congrArg (V c main_arg1) ?_
  funext a; apply Fin.ext
  match a with
  | ⟨0, _⟩ => show win0_2.index t (0 : Fin 2) * 256 + 1 * k.val = k.val; omega
  | ⟨1, _⟩ => show win0_2.index t (1 : Fin 2) * 256 + 1 * q.val = q.val; omega

/-- The second weight matrix's one block is the matrix. -/
theorem blk3_apply (c : Dev nD) (t : Fin cfg0.N) (k : Fin 256) (q : Fin 256) :
    iblk0 V c 3 t (ix2 k q) = V c main_arg2 (ix2 k q) := by
  obtain ⟨-, -, -, -, -, -, e0, e1, -⟩ := idx_facts t
  show V c main_arg2 (((cfg0.win 3).blk t).view.emb (ix2 k q)) = _
  refine congrArg (V c main_arg2) ?_
  funext a; apply Fin.ext
  match a with
  | ⟨0, _⟩ => show win0_3.index t (0 : Fin 2) * 256 + 1 * k.val = k.val; omega
  | ⟨1, _⟩ => show win0_3.index t (1 : Fin 2) * 256 + 1 * q.val = q.val; omega

/-- The bias row's one block is the row. -/
theorem blk4_apply (c : Dev nD) (t : Fin cfg0.N) (q : Fin 256) :
    iblk0 V c 4 t (ix2 (0 : Fin 1) q) = V c main_v19 (ix2 (0 : Fin 1) q) := by
  obtain ⟨-, -, -, -, -, -, -, -, e0, e1, -⟩ := idx_facts t
  show V c main_v19 (((cfg0.win 4).blk t).view.emb (ix2 (0 : Fin 1) q)) = _
  refine congrArg (V c main_v19) ?_
  funext a; apply Fin.ext
  match a with
  | ⟨0, _⟩ => show win0_4.index t (0 : Fin 2) * 1 + 1 * 0 = 0; omega
  | ⟨1, _⟩ => show win0_4.index t (1 : Fin 2) * 256 + 1 * q.val = q.val; omega

/-- Entry `(p, q)` of the output block at point `t` sits at `(2000 t + p, q)` of the output array. -/
theorem emb5_apply (t : Fin cfg0.N) (p : Fin 2000) (q : Fin 256) (h : t.val * 2000 + p.val < 50000) :
    ((cfg0.win 5).blk t).view.emb (ix2 p q) = ix2 (⟨t.val * 2000 + p.val, h⟩ : Fin 50000) q := by
  obtain ⟨-, -, -, -, -, -, -, -, -, -, e0, e1⟩ := idx_facts t
  funext a; apply Fin.ext
  match a with
  | ⟨0, _⟩ => show win0_5.index t (0 : Fin 2) * 2000 + 1 * p.val = t.val * 2000 + p.val; omega
  | ⟨1, _⟩ => show win0_5.index t (1 : Fin 2) * 256 + 1 * q.val = q.val; omega

/-- What point `t` writes back is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x256) hz, View.ld_unit_zero (S := S256x256) hz, View.ld_unit_zero (S := S1x256) hz]
  funext y
  obtain ⟨p, q, rfl⟩ : ∃ (p : Fin 2000) (q : Fin 256), y = ix2 p q := ⟨y 0, y 1, eq_ix2 y⟩
  have ht := point_lt t
  have h : t.val * 2000 + p.val < 50000 := by have := p.isLt; omega
  show k0_pay1 (iblk0 V c 0 t) (iblk0 V c 1 t) (iblk0 V c 2 t) (iblk0 V c 3 t) (iblk0 V c 4 t) (ix2 p q)
    = G V c (((cfg0.win 5).blk t).view.emb (ix2 p q))
  rw [emb5_apply t p q h]
  refine (pay_apply _ _ _ _ _ (ix2 p q)).trans ?_
  exact SageLayer.layerRelu_rows (V c main_v18) (V c main_v17) (V c main_arg1) (V c main_arg2) (fun q => V c main_v19 (ix2 (0 : Fin 1) q))
    (iblk0 V c 0 t) (iblk0 V c 1 t) (iblk0 V c 2 t) (iblk0 V c 3 t) (fun q => iblk0 V c 4 t (ix2 (0 : Fin 1) q)) p ⟨t.val * 2000 + p.val, h⟩ q
    (fun k => blk0_apply V c t p k h) (fun k => blk1_apply V c t p k h) (fun k => blk2_apply V c t k q) (fun k => blk3_apply V c t k q)
    (blk4_apply V c t q)

/-- An index of the output array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v20).slice (win0_5.rect t)).set ↔ _
  rw [View.set_slice_whole, Rect.mem_set_unit]
  exact Iff.rfl

/-- Row `r` of the output lies in the block of point `r / 2000`: the 25 blocks cover the array. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : (i 0).val / 2000 < cfg0.N := by show _ < grid0.N; rw [N_0]; omega
  obtain ⟨-, -, -, -, -, -, -, -, -, -, e0, e1⟩ := idx_facts ⟨(i 0).val / 2000, hN⟩
  refine ⟨⟨(i 0).val / 2000, hN⟩, flush0_5 _, ?_⟩
  rw [mem_blk]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, hN⟩ (1 : Fin 2) * 256 ≤ (i 1).val ∧ (i 1).val < win0_5.index ⟨(i 0).val / 2000, hN⟩ (1 : Fin 2) * 256 + 256
    rw [e1]; omega

/-- The output array after the region: `G` of the arrays as the region found them. -/
theorem final (c : Dev nD) : (dat0 V c).arrAt 5 cfg0.N = G V c :=
  (dat0 V c).arrAt_eq_of_cover 5 (G V c) (fun t _ => flushed_eq V c t) cover

end Cert.KernelIdeal.Region0

end
-- ==== Proof.Region1.lean ====
/-
  The second pallas_call, read as values: whatever the TensorCore's buffers hold when the region is entered, the
  region's output array ends holding the second layer's dense half (no clamp) of the five arrays its windows read.
  Point `t` of the grid of 5 handles rows `2000 t … 2000 t + 1999`; the weight matrices and the bias row are one block
  at every point.
-/
import proofs.«152853_j54391465836676_1_alg».proof.Proof.Gen.KernelIdeal.Frame
import proofs.«152853_j54391465836676_1_alg».proof.Proof.LibSageLayer
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

local notation "dd" => dot_S2000x256_S256x128_S2000x128_1_0_0_1_n_n

theorem hz : (![0, 0] : Fin 2 → Nat) = fun _ => 0 := funext fun a => by fin_cases a <;> rfl

/-- The kept coordinate of the left operand's index is the output's row. -/
theorem dot_l0 (j : S2000x128.Idx) (q : dot_S2000x256_S256x128_S2000x128_1_0_0_1_n_n.contr.Idx) :
    (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl

/-- The kept coordinate of the right operand's index is the output's column. -/
theorem dot_r1 (j : S2000x128.Idx) (q : dot_S2000x256_S256x128_S2000x128_1_0_0_1_n_n.contr.Idx) :
    (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-- The body's stored value at an index of the block: the layer of the five loaded blocks. -/
theorem pay_apply (x0 x1 : Vec Ideal S2000x256 .f32) (x2 x3 : Vec Ideal S256x128 .f32) (x4 : Vec Ideal S1x128 .f32)
    (j : S2000x128.Idx) :
    k1_pay1 x0 x1 x2 x3 x4 j = SageLayer.layer x0 x1 x2 x3 (fun q => x4 (ix2 (0 : Fin 1) q)) j := by
  unfold k1_pay1
  exact SageLayer.layerBody_apply dot_S2000x256_S256x128_S2000x128_1_0_0_1_n_n rfl rfl rfl rfl dot_l0 dot_r1
    x0 x1 x2 x3 x4 _ _ _ _ j

variable (V : (c : Dev nD) → (b : Ref sig .tc) → Buf (Elt Ideal) ((c : Thread nD τ).loc b))

/-- What the region's output array ends holding: the layer of the arrays its five input windows read. -/
def G (c : Dev nD) : S10000x128.Idx → Elt Ideal .f32 :=
  SageLayer.layer (a := 10000) (n := 256) (b := 128) (V c main_v39) (V c main_v38) (V c main_arg4) (V c main_arg5)
    (fun q => V c main_v40 (ix2 (0 : Fin 1) q))

/-- The printed index maps, decided over the grid: the two feature windows and the output move down the rows with
    the point, block `t` at point `t`; the weights and the bias stay at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 5 := lt_of_lt_of_eq t.isLt N_1

/-- Row `p` of the own-features block at point `t` is row `2000 t + p` of the array. -/
theorem blk0_apply (c : Dev nD) (t : Fin cfg1.N) (p : Fin 2000) (k : Fin 256) (h : t.val * 2000 + p.val < 10000) :
    iblk1 V c 0 t (ix2 p k) = V c main_v39 (ix2 (⟨t.val * 2000 + p.val, h⟩ : Fin 10000) k) := by
  obtain ⟨e0, e1, -⟩ := idx_facts t
  show V c main_v39 (((cfg1.win 0).blk t).view.emb (ix2 p k)) = _
  refine congrArg (V c main_v39) ?_
  funext a; apply Fin.ext
  match a with
  | ⟨0, _⟩ => show win1_0.index t (0 : Fin 2) * 2000 + 1 * p.val = t.val * 2000 + p.val; omega
  | ⟨1, _⟩ => show win1_0.index t (1 : Fin 2) * 256 + 1 * k.val = k.val; omega

/-- Row `p` of the neighbour-mean block at point `t` is row `2000 t + p` of the array. -/
theorem blk1_apply (c : Dev nD) (t : Fin cfg1.N) (p : Fin 2000) (k : Fin 256) (h : t.val * 2000 + p.val < 10000) :
    iblk1 V c 1 t (ix2 p k) = V c main_v38 (ix2 (⟨t.val * 2000 + p.val, h⟩ : Fin 10000) k) := by
  obtain ⟨-, -, e0, e1, -⟩ := idx_facts t
  show V c main_v38 (((cfg1.win 1).blk t).view.emb (ix2 p k)) = _
  refine congrArg (V c main_v38) ?_
  funext a; apply Fin.ext
  match a with
  | ⟨0, _⟩ => show win1_1.index t (0 : Fin 2) * 2000 + 1 * p.val = t.val * 2000 + p.val; omega
  | ⟨1, _⟩ => show win1_1.index t (1 : Fin 2) * 256 + 1 * k.val = k.val; omega

/-- The first weight matrix's one block is the matrix. -/
theorem blk2_apply (c : Dev nD) (t : Fin cfg1.N) (k : Fin 256) (q : Fin 128) :
    iblk1 V c 2 t (ix2 k q) = V c main_arg4 (ix2 k q) := by
  obtain ⟨-, -, -, -, e0, e1, -⟩ := idx_facts t
  show V c main_arg4 (((cfg1.win 2).blk t).view.emb (ix2 k q)) = _
  refine congrArg (V c main_arg4) ?_
  funext a; apply Fin.ext
  match a with
  | ⟨0, _⟩ => show win1_2.index t (0 : Fin 2) * 256 + 1 * k.val = k.val; omega
  | ⟨1, _⟩ => show win1_2.index t (1 : Fin 2) * 128 + 1 * q.val = q.val; omega

/-- The second weight matrix's one block is the matrix. -/
theorem blk3_apply (c : Dev nD) (t : Fin cfg1.N) (k : Fin 256) (q : Fin 128) :
    iblk1 V c 3 t (ix2 k q) = V c main_arg5 (ix2 k q) := by
  obtain ⟨-, -, -, -, -, -, e0, e1, -⟩ := idx_facts t
  show V c main_arg5 (((cfg1.win 3).blk t).view.emb (ix2 k q)) = _
  refine congrArg (V c main_arg5) ?_
  funext a; apply Fin.ext
  match a with
  | ⟨0, _⟩ => show win1_3.index t (0 : Fin 2) * 256 + 1 * k.val = k.val; omega
  | ⟨1, _⟩ => show win1_3.index t (1 : Fin 2) * 128 + 1 * q.val = q.val; omega

/-- The bias row's one block is the row. -/
theorem blk4_apply (c : Dev nD) (t : Fin cfg1.N) (q : Fin 128) :
    iblk1 V c 4 t (ix2 (0 : Fin 1) q) = V c main_v40 (ix2 (0 : Fin 1) q) := by
  obtain ⟨-, -, -, -, -, -, -, -, e0, e1, -⟩ := idx_facts t
  show V c main_v40 (((cfg1.win 4).blk t).view.emb (ix2 (0 : Fin 1) q)) = _
  refine congrArg (V c main_v40) ?_
  funext a; apply Fin.ext
  match a with
  | ⟨0, _⟩ => show win1_4.index t (0 : Fin 2) * 1 + 1 * 0 = 0; omega
  | ⟨1, _⟩ => show win1_4.index t (1 : Fin 2) * 128 + 1 * q.val = q.val; omega

/-- Entry `(p, q)` of the output block at point `t` sits at `(2000 t + p, q)` of the output array. -/
theorem emb5_apply (t : Fin cfg1.N) (p : Fin 2000) (q : Fin 128) (h : t.val * 2000 + p.val < 10000) :
    ((cfg1.win 5).blk t).view.emb (ix2 p q) = ix2 (⟨t.val * 2000 + p.val, h⟩ : Fin 10000) q := by
  obtain ⟨-, -, -, -, -, -, -, -, -, -, e0, e1⟩ := idx_facts t
  funext a; apply Fin.ext
  match a with
  | ⟨0, _⟩ => show win1_5.index t (0 : Fin 2) * 2000 + 1 * p.val = t.val * 2000 + p.val; omega
  | ⟨1, _⟩ => show win1_5.index t (1 : Fin 2) * 128 + 1 * q.val = q.val; omega

/-- What point `t` writes back is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x128) hz, View.ld_unit_zero (S := S1x128) hz]
  funext y
  obtain ⟨p, q, rfl⟩ : ∃ (p : Fin 2000) (q : Fin 128), y = ix2 p q := ⟨y 0, y 1, eq_ix2 y⟩
  have ht := point_lt t
  have h : t.val * 2000 + p.val < 10000 := by have := p.isLt; omega
  show k1_pay1 (iblk1 V c 0 t) (iblk1 V c 1 t) (iblk1 V c 2 t) (iblk1 V c 3 t) (iblk1 V c 4 t) (ix2 p q)
    = G V c (((cfg1.win 5).blk t).view.emb (ix2 p q))
  rw [emb5_apply t p q h]
  refine (pay_apply _ _ _ _ _ (ix2 p q)).trans ?_
  exact SageLayer.layer_rows (V c main_v39) (V c main_v38) (V c main_arg4) (V c main_arg5) (fun q => V c main_v40 (ix2 (0 : Fin 1) q))
    (iblk1 V c 0 t) (iblk1 V c 1 t) (iblk1 V c 2 t) (iblk1 V c 3 t) (fun q => iblk1 V c 4 t (ix2 (0 : Fin 1) q)) p ⟨t.val * 2000 + p.val, h⟩ q
    (fun k => blk0_apply V c t p k h) (fun k => blk1_apply V c t p k h) (fun k => blk2_apply V c t k q) (fun k => blk3_apply V c t k q)
    (blk4_apply V c t q)

/-- An index of the output array is in point `t`'s block iff each coordinate is in the block's range on its axis. -/
theorem mem_blk (t : Fin cfg1.N) (i : S10000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v41).slice (win1_5.rect t)).set ↔ _
  rw [View.set_slice_whole, Rect.mem_set_unit]
  exact Iff.rfl

/-- Row `r` of the output lies in the block of point `r / 2000`: the 5 blocks cover the array. -/
theorem cover (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  have hN : (i 0).val / 2000 < cfg1.N := by show _ < grid1.N; rw [N_1]; omega
  obtain ⟨-, -, -, -, -, -, -, -, -, -, e0, e1⟩ := idx_facts ⟨(i 0).val / 2000, hN⟩
  refine ⟨⟨(i 0).val / 2000, hN⟩, flush1_5 _, ?_⟩
  rw [mem_blk]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, hN⟩ (1 : Fin 2) * 128 ≤ (i 1).val ∧ (i 1).val < win1_5.index ⟨(i 0).val / 2000, hN⟩ (1 : Fin 2) * 128 + 128
    rw [e1]; omega

/-- The output array after the region: `G` of the arrays as the region found them. -/
theorem final (c : Dev nD) : (dat1 V c).arrAt 5 cfg1.N = G V c :=
  (dat1 V c).arrAt_eq_of_cover 5 (G V c) (fun t _ => flushed_eq V c t) cover

end Cert.KernelIdeal.Region1

end
-- ==== Proof.Stretches.lean ====
/-
  The two stretches of host operations of the kernel's program, read at the buffers the pallas_calls take: from ANY
  contents `W` of the TensorCore's buffers, after the stretch the sliced own-features, the neighbour mean (gather along
  the edges' sources, scatter-add at their destinations, divide by the clamped in-degree) and the bias row hold the
  reference program's own stages of the same buffers of `W` — the two programs spell this part identically, so it is
  carried as one function and never opened — and the weights are untouched.
-/
import proofs.«152853_j54391465836676_1_alg».proof.Proof.Gen.KernelIdeal.Launch
import proofs.«152853_j54391465836676_1_alg».proof.Proof.Gen.ReferenceIdeal.Read
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable (W : Valuation τ sig (Elt Ideal))

/-- After the first stretch: the first 50000 rows of the features. -/
theorem s0_self : (StableHlo.after (hostOps0 (F := Ideal)) W (Proc.devRef .tc main_v18) : S50000x256.Idx → EReal)
    = Cert.ReferenceIdeal.Read.val_main_v18 (F := Ideal) (W (Proc.devRef .tc main_arg0)) := by
  after_results; rfl

/-- After the first stretch: the neighbour mean of the features along the first layer's edges. -/
theorem s0_neigh : (StableHlo.after (hostOps0 (F := Ideal)) W (Proc.devRef .tc main_v17) : S50000x256.Idx → EReal)
    = Cert.ReferenceIdeal.Read.val_main_v17 (F := Ideal) (W (Proc.devRef .tc main_arg0)) (W (Proc.devRef .tc main_arg7))
        (W (Proc.devRef .tc main_arg8)) := by
  after_results_simp; rfl

/-- After the first stretch: the first bias as a row. -/
theorem s0_bias : (StableHlo.after (hostOps0 (F := Ideal)) W (Proc.devRef .tc main_v19) : S1x256.Idx → EReal)
    = shapeCast S1x256 (W (Proc.devRef .tc main_arg3) : S256.Idx → EReal) shapeCasts_S256_S1x256 := by
  after_results; rfl

/-- The first stretch writes neither weight matrix. -/
theorem s0_w1 : StableHlo.after (hostOps0 (F := Ideal)) W (Proc.devRef .tc main_arg1) = W (Proc.devRef .tc main_arg1) := by
  after_results
theorem s0_w2 : StableHlo.after (hostOps0 (F := Ideal)) W (Proc.devRef .tc main_arg2) = W (Proc.devRef .tc main_arg2) := by
  after_results

/-- Nor the second layer's weights, bias and edge lists. -/
theorem s0_w4 : StableHlo.after (hostOps0 (F := Ideal)) W (Proc.devRef .tc main_arg4) = W (Proc.devRef .tc main_arg4) := by
  after_results
theorem s0_w5 : StableHlo.after (hostOps0 (F := Ideal)) W (Proc.devRef .tc main_arg5) = W (Proc.devRef .tc main_arg5) := by
  after_results
theorem s0_b2 : StableHlo.after (hostOps0 (F := Ideal)) W (Proc.devRef .tc main_arg6) = W (Proc.devRef .tc main_arg6) := by
  after_results
theorem s0_src2 : StableHlo.after (hostOps0 (F := Ideal)) W (Proc.devRef .tc main_arg9) = W (Proc.devRef .tc main_arg9) := by
  after_results
theorem s0_dst2 : StableHlo.after (hostOps0 (F := Ideal)) W (Proc.devRef .tc main_arg10) = W (Proc.devRef .tc main_arg10) := by
  after_results

section Second

variable (x0 : (⟨Cert.ReferenceIdeal.S200000x256, .f32⟩ : BufTy).Contents (Elt Ideal))
  (x1 x2 : (⟨Cert.ReferenceIdeal.S256x256, .f32⟩ : BufTy).Contents (Elt Ideal))
  (x3 : (⟨Cert.ReferenceIdeal.S256, .f32⟩ : BufTy).Contents (Elt Ideal))
  (x7 x8 : (⟨Cert.ReferenceIdeal.S800000, .i32⟩ : BufTy).Contents (Elt Ideal))

/-- After the second stretch, when the first pallas_call's output holds the reference's hidden features: their first
    10000 rows. -/
theorem s1_self (hH : W (Proc.devRef .tc main_v20) = Cert.ReferenceIdeal.Read.val_main_v25 (F := Ideal) x0 x1 x2 x3 x7 x8) :
    (StableHlo.after (hostOps1 (F := Ideal)) W (Proc.devRef .tc main_v39) : S10000x256.Idx → EReal)
      = Cert.ReferenceIdeal.Read.val_main_v44 (F := Ideal) x0 x1 x2 x3 x7 x8 := by
  after_results; rw [hH]; rfl

/-- After the second stretch, under the same hypothesis: the neighbour mean of the hidden features along the second
    layer's edges. -/
theorem s1_neigh (hH : W (Proc.devRef .tc main_v20) = Cert.ReferenceIdeal.Read.val_main_v25 (F := Ideal) x0 x1 x2 x3 x7 x8) :
    (StableHlo.after (hostOps1 (F := Ideal)) W (Proc.devRef .tc main_v38) : S10000x256.Idx → EReal)
      = Cert.ReferenceIdeal.Read.val_main_v43 (F := Ideal) x0 x1 x2 x3 x7 x8 (W (Proc.devRef .tc main_arg9))
          (W (Proc.devRef .tc main_arg10)) := by
  after_results_simp; rw [hH]; rfl

end Second

/-- After the second stretch: the second bias as a row. -/
theorem s1_bias : (StableHlo.after (hostOps1 (F := Ideal)) W (Proc.devRef .tc main_v40) : S1x128.Idx → EReal)
    = shapeCast S1x128 (W (Proc.devRef .tc main_arg6) : S128.Idx → EReal) shapeCasts_S128_S1x128 := by
  after_results; rfl

/-- The second stretch writes neither of the second layer's weight matrices. -/
theorem s1_w4 : StableHlo.after (hostOps1 (F := Ideal)) W (Proc.devRef .tc main_arg4) = W (Proc.devRef .tc main_arg4) := by
  after_results
theorem s1_w5 : StableHlo.after (hostOps1 (F := Ideal)) W (Proc.devRef .tc main_arg5) = W (Proc.devRef .tc main_arg5) := by
  after_results

end Cert.KernelIdeal.Stretch

end
-- ==== Proof.RefLayers.lean ====
/-
  The reference program's two dense halves, stage by stage: its first layer after the clamp (`%25`) is `layerRelu` of
  the sliced features, the neighbour mean, the two weight matrices and the bias; its result (`%50`) is `layer` of the
  sliced hidden features, their neighbour mean, the second pair of weights and the second bias. Each host
  `dot_general` is read as the sum over the contracted coordinate, each bias broadcast at its column.
-/
import proofs.«152853_j54391465836676_1_alg».proof.Proof.Gen.ReferenceIdeal.Read
import proofs.«152853_j54391465836676_1_alg».proof.Proof.LibSageLayer

set_option maxRecDepth 16384

noncomputable section

namespace Cert.ReferenceIdeal.Layers

open Cert.ReferenceIdeal Cert.ReferenceIdeal.Gen Cert.ReferenceIdeal.Read
open Idealize.ShloMosaic Idealize.ShloMosaic.TcCoe Idealize.ShloMosaic.ValueIdx Idealize.SL.Sem

/-- The first layer: `max (hs · W_self1 + hn · W_neigh1 + b1) 0`, entry by entry. -/
theorem hidden_eq (x0 : (⟨S200000x256, .f32⟩ : BufTy).Contents (Elt Ideal)) (x1 x2 : (⟨S256x256, .f32⟩ : BufTy).Contents (Elt Ideal))
    (x3 : (⟨S256, .f32⟩ : BufTy).Contents (Elt Ideal)) (x7 x8 : (⟨S800000, .i32⟩ : BufTy).Contents (Elt Ideal)) :
    val_main_v25 (F := Ideal) x0 x1 x2 x3 x7 x8
      = SageLayer.layerRelu (a := 50000) (n := 256) (b := 256) (val_main_v18 (F := Ideal) x0) (val_main_v17 (F := Ideal) x0 x7 x8) x1 x2
          (fun q => x3 (ix1 q)) := by
  funext i
  obtain ⟨p, q, rfl⟩ : ∃ (p : Fin 50000) (q : Fin 256), i = ix2 p q := ⟨i 0, i 1, eq_ix2 i⟩
  have el : ∀ k : Fin 256, lidx_main_v19 (ix2 p q) k = ix2 p k := fun k => funext fun a => by
    match a with | ⟨0, _⟩ => rfl | ⟨1, _⟩ => rfl
  have er : ∀ k : Fin 256, ridx_main_v19 (ix2 p q) k = ix2 k q := fun k => funext fun a => by
    match a with | ⟨0, _⟩ => rfl | ⟨1, _⟩ => rfl
  have el' : ∀ k : Fin 256, lidx_main_v20 (ix2 p q) k = ix2 p k := fun k => funext fun a => by
    match a with | ⟨0, _⟩ => rfl | ⟨1, _⟩ => rfl
  have er' : ∀ k : Fin 256, ridx_main_v20 (ix2 p q) k = ix2 k q := fun k => funext fun a => by
    match a with | ⟨0, _⟩ => rfl | ⟨1, _⟩ => rfl
  have eb : idx_main_v22 (idx_main_v23 (ix2 p q)) = ix1 q := funext fun a => by
    match a with | ⟨0, _⟩ => rfl
  rw [val_main_v25_apply, val_main_v24_apply, val_main_v21_apply, val_main_v19_apply, val_main_v20_apply,
    val_main_v23_apply, val_main_v22_apply, val_main_call0_v0_apply, val_main_call0_cst_apply]
  simp only [el, er, el', er', eb]
  rfl

/-- The second layer: `hs' · W_self2 + hn' · W_neigh2 + b2`, entry by entry, of the sliced hidden features `%44` and their
    neighbour mean `%43`. -/
theorem out_eq (x0 : (⟨S200000x256, .f32⟩ : BufTy).Contents (Elt Ideal)) (x1 x2 : (⟨S256x256, .f32⟩ : BufTy).Contents (Elt Ideal))
    (x3 : (⟨S256, .f32⟩ : BufTy).Contents (Elt Ideal)) (x4 x5 : (⟨S256x128, .f32⟩ : BufTy).Contents (Elt Ideal))
    (x6 : (⟨S128, .f32⟩ : BufTy).Contents (Elt Ideal)) (x7 x8 : (⟨S800000, .i32⟩ : BufTy).Contents (Elt Ideal))
    (x9 x10 : (⟨S160000, .i32⟩ : BufTy).Contents (Elt Ideal)) :
    val_main_v50 (F := Ideal) x0 x1 x2 x3 x4 x5 x6 x7 x8 x9 x10
      = SageLayer.layer (a := 10000) (n := 256) (b := 128) (val_main_v44 (F := Ideal) x0 x1 x2 x3 x7 x8)
          (val_main_v43 (F := Ideal) x0 x1 x2 x3 x7 x8 x9 x10) x4 x5 (fun q => x6 (ix1 q)) := by
  funext i
  obtain ⟨p, q, rfl⟩ : ∃ (p : Fin 10000) (q : Fin 128), i = ix2 p q := ⟨i 0, i 1, eq_ix2 i⟩
  have el : ∀ k : Fin 256, lidx_main_v45 (ix2 p q) k = ix2 p k := fun k => funext fun a => by
    match a with | ⟨0, _⟩ => rfl | ⟨1, _⟩ => rfl
  have er : ∀ k : Fin 256, ridx_main_v45 (ix2 p q) k = ix2 k q := fun k => funext fun a => by
    match a with | ⟨0, _⟩ => rfl | ⟨1, _⟩ => rfl
  have el' : ∀ k : Fin 256, lidx_main_v46 (ix2 p q) k = ix2 p k := fun k => funext fun a => by
    match a with | ⟨0, _⟩ => rfl | ⟨1, _⟩ => rfl
  have er' : ∀ k : Fin 256, ridx_main_v46 (ix2 p q) k = ix2 k q := fun k => funext fun a => by
    match a with | ⟨0, _⟩ => rfl | ⟨1, _⟩ => rfl
  have eb : idx_main_v48 (idx_main_v49 (ix2 p q)) = ix1 q := funext fun a => by
    match a with | ⟨0, _⟩ => rfl
  rw [val_main_v50_apply, val_main_v47_apply, val_main_v45_apply, val_main_v46_apply, val_main_v49_apply, val_main_v48_apply]
  simp only [el, er, el', er', eb]
  rfl

end Cert.ReferenceIdeal.Layers

end
-- ==== Proof.Bridge.lean ====
/-
  The kernel program's result is the reference's last stage of the same arguments.

  Following the program's four segments from the launch memory: the first stretch of host operations leaves the sliced
  features, the neighbour mean and the bias row (the reference's own stages); the first pallas_call's output array then
  holds the clamped first layer of them, which is the reference's hidden features `%25`; the second stretch, applied to
  that array, leaves the reference's sliced hidden features `%44` and their neighbour mean `%43`; and the second
  pallas_call's output array holds the second layer of those, the reference's result `%50`.
-/
import proofs.«152853_j54391465836676_1_alg».proof.Proof.RunMain
import proofs.«152853_j54391465836676_1_alg».proof.Proof.Region0
import proofs.«152853_j54391465836676_1_alg».proof.Proof.Region1
import proofs.«152853_j54391465836676_1_alg».proof.Proof.Stretches
import proofs.«152853_j54391465836676_1_alg».proof.Proof.RefLayers
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first pallas_call's output array, at the boundary after it, holds the reference's hidden features. -/
theorem hidden (c : Dev nD) :
    W2 m ρ c (Proc.devRef .tc main_v20)
      = Cert.ReferenceIdeal.Read.val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) := by
  refine (W2_arr m ρ c 5).trans ?_
  rw [Region0.final (V1 m ρ) c, Cert.ReferenceIdeal.Layers.hidden_eq]
  unfold Region0.G
  have h18 : (V1 m ρ c main_v18 : S50000x256.Idx → EReal) = Cert.ReferenceIdeal.Read.val_main_v18 (F := Ideal) (m ((c.tc : Thread nD τ).loc main_arg0)) :=
    Stretch.s0_self (W0 m ρ c)
  have h17 : (V1 m ρ c main_v17 : S50000x256.Idx → EReal) = Cert.ReferenceIdeal.Read.val_main_v17 (F := Ideal) (m ((c.tc : Thread nD τ).loc main_arg0)) (m ((c.tc : Thread nD τ).loc main_arg7)) (m ((c.tc : Thread nD τ).loc main_arg8)) :=
    Stretch.s0_neigh (W0 m ρ c)
  have h1 : V1 m ρ c main_arg1 = (m ((c.tc : Thread nD τ).loc main_arg1)) := Stretch.s0_w1 (W0 m ρ c)
  have h2 : V1 m ρ c main_arg2 = (m ((c.tc : Thread nD τ).loc main_arg2)) := Stretch.s0_w2 (W0 m ρ c)
  have hb : (fun q : Fin 256 => (V1 m ρ c main_v19 : S1x256.Idx → EReal) (ix2 (0 : Fin 1) q))
      = fun q : Fin 256 => ((m ((c.tc : Thread nD τ).loc main_arg3)) : S256.Idx → EReal) (ix1 q) :=
    funext fun q => (congrFun (Stretch.s0_bias (W0 m ρ c)) (ix2 (0 : Fin 1) q)).trans (shapeCast_a_1a_apply _ _ 0 q)
  rw [h18, h17, h1, h2, hb]

/-- The result buffer at the last boundary holds the reference's last stage of the arguments. -/
theorem result (c : Dev nD) :
    W4 m ρ c (Proc.devRef .tc main_v41)
      = Cert.ReferenceIdeal.Read.val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W4_arr m ρ c 5).trans ?_
  rw [Region1.final (V3 m ρ) c, Cert.ReferenceIdeal.Layers.out_eq]
  unfold Region1.G
  have hH := hidden m ρ c
  have k9 : W2 m ρ c (Proc.devRef .tc main_arg9) = (m ((c.tc : Thread nD τ).loc main_arg9)) :=
    (W2_of_ne m ρ c main_arg9 (by decide)).trans (Stretch.s0_src2 (W0 m ρ c))
  have k10 : W2 m ρ c (Proc.devRef .tc main_arg10) = (m ((c.tc : Thread nD τ).loc main_arg10)) :=
    (W2_of_ne m ρ c main_arg10 (by decide)).trans (Stretch.s0_dst2 (W0 m ρ c))
  have k4 : W2 m ρ c (Proc.devRef .tc main_arg4) = (m ((c.tc : Thread nD τ).loc main_arg4)) :=
    (W2_of_ne m ρ c main_arg4 (by decide)).trans (Stretch.s0_w4 (W0 m ρ c))
  have k5 : W2 m ρ c (Proc.devRef .tc main_arg5) = (m ((c.tc : Thread nD τ).loc main_arg5)) :=
    (W2_of_ne m ρ c main_arg5 (by decide)).trans (Stretch.s0_w5 (W0 m ρ c))
  have k6 : W2 m ρ c (Proc.devRef .tc main_arg6) = (m ((c.tc : Thread nD τ).loc main_arg6)) :=
    (W2_of_ne m ρ c main_arg6 (by decide)).trans (Stretch.s0_b2 (W0 m ρ c))
  have h39 : (V3 m ρ c main_v39 : S10000x256.Idx → EReal)
      = Cert.ReferenceIdeal.Read.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) :=
    Stretch.s1_self (W2 m ρ c) _ _ _ _ _ _ hH
  have h38 : (V3 m ρ c main_v38 : S10000x256.Idx → EReal)
      = Cert.ReferenceIdeal.Read.val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) :=
    (Stretch.s1_neigh (W2 m ρ c) _ _ _ _ _ _ hH).trans (by rw [k9, k10])
  have h4 : V3 m ρ c main_arg4 = (m ((c.tc : Thread nD τ).loc main_arg4)) := (Stretch.s1_w4 (W2 m ρ c)).trans k4
  have h5 : V3 m ρ c main_arg5 = (m ((c.tc : Thread nD τ).loc main_arg5)) := (Stretch.s1_w5 (W2 m ρ c)).trans k5
  have hb : (fun q : Fin 128 => (V3 m ρ c main_v40 : S1x128.Idx → EReal) (ix2 (0 : Fin 1) q))
      = fun q : Fin 128 => ((m ((c.tc : Thread nD τ).loc main_arg6)) : S128.Idx → EReal) (ix1 q) :=
    funext fun q => (congrFun (Stretch.s1_bias (W2 m ρ c)) (ix2 (0 : Fin 1) q)).trans
      ((shapeCast_a_1a_apply _ _ 0 q).trans (congrFun k6 (ix1 q)))
  rw [h39, h38, h4, h5, hb]

end Cert.KernelIdeal.Whole

end
-- ==== Proof.lean ====
/-
  Two GraphSAGE layers (mean aggregation over sampled edges, two linear maps and a bias; a clamp at zero after the
  first): the kernel program against its jnp reference, on the extended reals.

  Both programs gather the source rows along the edges, scatter-add them at the destination rows, divide by the
  in-degree clamped below at one, and slice the destination nodes' own rows — on the host, in the same operations; only
  the dense half of each layer differs in spelling. The kernel program computes it in a pallas_call over blocks of 2000
  rows (operands narrowed to bf16, which changes no exact value; two matrix products into zero accumulators; the bias row
  repeated down the block; for the first layer a maximum with zero), the reference by two `dot_general`s, two additions
  and a `maximum`. Entry by entry both are

      ∑ k, hs (p, k) * ws (k, q)  +  ∑ k, hn (p, k) * wn (k, q)  +  bias q

  with the additions in this order, so the two results are equal term by term and no algebraic law of the extended
  reals — hence no finiteness of the inputs — is used.

  `LibSageLayer` states that function and reads a kernel body at an index; `Region0` / `Region1` show that each
  pallas_call leaves it in its output array, whatever the buffers hold on entry; `Stretches` reads the host operations
  between; `RefLayers` reads the reference's stages; `RunMain` is the program's run with the result buffer named;
  `Bridge` follows the four segments from the launch memory to the reference's last stage.
-/
import proofs.«152853_j54391465836676_1_alg».proof.Defs
import proofs.«152853_j54391465836676_1_alg».proof.Proof.Gen.Kernel
import proofs.«152853_j54391465836676_1_alg».proof.Proof.Gen.Kernel.Frame
import proofs.«152853_j54391465836676_1_alg».proof.Proof.Gen.KernelIdeal
import proofs.«152853_j54391465836676_1_alg».proof.Proof.Gen.KernelIdeal.Frame
import proofs.«152853_j54391465836676_1_alg».proof.Proof.Gen.ReferenceIdeal
import proofs.«152853_j54391465836676_1_alg».proof.Proof.Gen.Pre_finite_inputs
import proofs.«152853_j54391465836676_1_alg».proof.Proof.Gen.ReferenceIdeal.Run
import proofs.«152853_j54391465836676_1_alg».proof.Proof.Gen.ReferenceIdeal.Read
import proofs.«152853_j54391465836676_1_alg».proof.Proof.Bridge
import Idealize.ShloMosaic.Adequacy
import Idealize.ShloMosaic.Init

noncomputable section

namespace Cert.Proof

open Idealize.ShloMosaic Idealize.ShloMosaic.TcCoe Idealize.SL.Sem

/-- At the ideal values the kernel program's result buffer ends at the reference's last stage of its own arguments
    (`Whole.result`), the reference's at the same stage of its arguments (its run read back), and the arguments agree. -/
theorem algebraic : Cert.algebraic_KernelIdeal_ReferenceIdeal := by
  intro m ρ m' ρ' _ hagree
  refine ⟨fun c => Cert.KernelIdeal.Gen.W4 m ρ c (Proc.devRef .tc Cert.KernelIdeal.main_v41),
    Cert.KernelIdeal.Whole.run_main m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  show Cert.ReferenceIdeal.Value.res_main_v50 m' c = Cert.KernelIdeal.Gen.W4 m ρ c (Proc.devRef .tc Cert.KernelIdeal.main_v41)
  rw [Cert.ReferenceIdeal.Read.val_main_v50_eq, Cert.KernelIdeal.Whole.result m ρ c,
    h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
